-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x128 : Shape := ⟨4, ![8, 16, 1024, 128]⟩
abbrev S_ : Shape := ⟨0, ![]⟩

class Facts : Prop where
  bcast_S_S8x16x1024x128 : S_.BroadcastsInDim S8x16x1024x128 (![] : Fin 0 → Fin S8x16x1024x128.rank)
  reducesTo_S8x16x1024x128_S_d0_1_2_3 : S8x16x1024x128.ReducesTo [0, 1, 2, 3] S_
  h_S_ : 0 < S_.numel

variable [Facts]

def fn {F : FTy → Type} [FloatOps F] (main_arg0 : FVec F S8x16x1024x128 .f32) (main_arg1 : FVec F S8x16x1024x128 .f32) (main_arg2 : FVec F S8x16x1024x128 .f32) : IVec S_ 1 :=
  let main_v0 : FVec F S8x16x1024x128 .f32 := Host.absf main_arg0
  let main_cst : FVec F S_ .f32 := constant S_ .f32 0x7F800000#32
  let main_v1 : FVec F S8x16x1024x128 .f32 := broadcastInDim S8x16x1024x128 ![] bcast_S_S8x16x1024x128 main_cst
  let main_v2 : IVec S8x16x1024x128 1 := cmpf .olt main_v0 main_v1
  let main_c : IVec S_ 1 := constantI S_ 1 1#1
  let main_v3 : IVec S_ 1 := (fun x v => Host.reduce IntOp.andi x v reducesTo_S8x16x1024x128_S_d0_1_2_3 h_S_) main_v2 main_c
  let main_v4 : FVec F S8x16x1024x128 .f32 := Host.absf main_arg1
  let main_cst_0 : FVec F S_ .f32 := constant S_ .f32 0x7F800000#32
  let main_v5 : FVec F S8x16x1024x128 .f32 := broadcastInDim S8x16x1024x128 ![] bcast_S_S8x16x1024x128 main_cst_0
  let main_v6 : IVec S8x16x1024x128 1 := cmpf .olt main_v4 main_v5
  let main_c_1 : IVec S_ 1 := constantI S_ 1 1#1
  let main_v7 : IVec S_ 1 := (fun x v => Host.reduce IntOp.andi x v reducesTo_S8x16x1024x128_S_d0_1_2_3 h_S_) main_v6 main_c_1
  let main_v8 : IVec S_ 1 := andi main_v3 main_v7
  let main_v9 : FVec F S8x16x1024x128 .f32 := Host.absf main_arg2
  let main_cst_2 : FVec F S_ .f32 := constant S_ .f32 0x7F800000#32
  let main_v10 : FVec F S8x16x1024x128 .f32 := broadcastInDim S8x16x1024x128 ![] bcast_S_S8x16x1024x128 main_cst_2
  let main_v11 : IVec S8x16x1024x128 1 := cmpf .olt main_v9 main_v10
  let main_c_3 : IVec S_ 1 := constantI S_ 1 1#1
  let main_v12 : IVec S_ 1 := (fun x v => Host.reduce IntOp.andi x v reducesTo_S8x16x1024x128_S_d0_1_2_3 h_S_) main_v11 main_c_3
  let main_v13 : IVec S_ 1 := andi main_v8 main_v12
  main_v13
-- ==== Kernel.lean ====
abbrev S8x16x1024x128 : Shape := ⟨4, ![8, 16, 1024, 128]⟩
abbrev S1x1x256x128 : Shape := ⟨4, ![1, 1, 256, 128]⟩
abbrev S1x1x1024x128 : Shape := ⟨4, ![1, 1, 1024, 128]⟩
abbrev S256x128 : Shape := ⟨2, ![256, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x16x1024x128, .f32⟩
  | .hbm, ⟨1, _⟩ => ⟨S8x16x1024x128, .f32⟩
  | .hbm, ⟨2, _⟩ => ⟨S8x16x1024x128, .f32⟩
  | .hbm, ⟨3, _⟩ => ⟨S8x16x1024x128, .f32⟩
  | .local _ .vmem, ⟨0, _⟩ => ⟨S1x1x256x128, .f32⟩
  | .local _ .vmem, ⟨1, _⟩ => ⟨S1x1x256x128, .f32⟩
  | .local _ .vmem, ⟨2, _⟩ => ⟨S1x1x1024x128, .f32⟩
  | .local _ .vmem, ⟨3, _⟩ => ⟨S1x1x1024x128, .f32⟩
  | .local _ .vmem, ⟨4, _⟩ => ⟨S1x1x1024x128, .f32⟩
  | .local _ .vmem, ⟨5, _⟩ => ⟨S1x1x1024x128, .f32⟩
  | .local _ .vmem, ⟨6, _⟩ => ⟨S1x1x256x128, .f32⟩
  | .local _ .vmem, ⟨7, _⟩ => ⟨S1x1x256x128, .f32⟩
  | _, _ => ⟨S8x16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x256x128_S1x1x256x128_0_0_0_0 : ∀ a, (![0, 0, 0, 0] : Fin 4 → Nat) a + S1x1x256x128.size a ≤ S1x1x256x128.size a
  h_S1x1x256x128 : 0 < S1x1x256x128.numel
  shapeCasts_S1x1x256x128_S256x128 : S1x1x256x128.ShapeCasts S256x128
  bitsLt_bf16_f32 : FTy.bits .bf16 < FTy.bits .f32
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  reduces_S256x1024_S256 : S256x1024.Reduces [1] S256
  shapeCasts_S256_S256x1 : S256.ShapeCasts S256x1
  broadcasts_S256x1_S256x1024 : S256x1.Broadcasts S256x1024
  shapeCasts_S256x128_S1x1x256x128 : S256x128.ShapeCasts S1x1x256x128
  dot_S256x128_S1024x128_S256x1024_1_1_0_0_n_n_wf : DotDims.WF S256x128 S1024x128 S256x1024 [1] [1] [0] [0] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x128.size a ≤ S8x16x1024x128.size a
  hwx0_0 : ∀ i : grid0.Coords, EltTy.bits .f32 = 32 ∨ (Rect.block (s := S8x16x1024x128) S1x1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x128.size a ≤ S8x16x1024x128.size a
  hwx0_1 : ∀ i : grid0.Coords, EltTy.bits .f32 = 32 ∨ (Rect.block (s := S8x16x1024x128) S1x1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x128.size a ≤ S8x16x1024x128.size a
  hwx0_2 : ∀ i : grid0.Coords, EltTy.bits .f32 = 32 ∨ (Rect.block (s := S8x16x1024x128) S1x1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x128.size a ≤ S8x16x1024x128.size a
  hwx0_3 : ∀ i : grid0.Coords, EltTy.bits .f32 = 32 ∨ (Rect.block (s := S8x16x1024x128) S1x1x256x128.size (cc0_transform_3 i) (hinb0_3 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S1x1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x1024x128 : Shape := ⟨4, ![8, 16, 1024, 128]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x16x1024x128, .f32⟩
  | .hbm, ⟨1, _⟩ => ⟨S8x16x1024x128, .f32⟩
  | .hbm, ⟨2, _⟩ => ⟨S8x16x1024x128, .f32⟩
  | .hbm, ⟨3, _⟩ => ⟨S8x16x1024x1024, .f32⟩
  | .hbm, ⟨4, _⟩ => ⟨S_, .f32⟩
  | .hbm, ⟨5, _⟩ => ⟨S8x16x1024x1024, .f32⟩
  | .hbm, ⟨6, _⟩ => ⟨S8x16x1024x1024, .f32⟩
  | .hbm, ⟨7, _⟩ => ⟨S_, .f32⟩
  | .hbm, ⟨8, _⟩ => ⟨S8x16x1024, .f32⟩
  | .hbm, ⟨9, _⟩ => ⟨S_, .f32⟩
  | .hbm, ⟨10, _⟩ => ⟨S8x16x1024, .f32⟩
  | .hbm, ⟨11, _⟩ => ⟨S8x16x1024, .f32⟩
  | .hbm, ⟨12, _⟩ => ⟨S8x16x1024x1, .f32⟩
  | .hbm, ⟨13, _⟩ => ⟨S8x16x1024x1024, .f32⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S8x16x1024x1, .f32⟩
  | .hbm, ⟨19, _⟩ => ⟨S8x16x1024x1024, .f32⟩
  | .hbm, ⟨20, _⟩ => ⟨S8x16x1024x1024, .f32⟩
  | .hbm, ⟨21, _⟩ => ⟨S8x16x1024x128, .f32⟩
  | _, _ => ⟨S8x16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x128_S8x16x1024x128_S8x16x1024x1024_3_3_2_2_01_01_wf : DotDims.WF S8x16x1024x128 S8x16x1024x128 S8x16x1024x1024 [3] [3] [2] [2] [0, 1] [0, 1]
  dot_S8x16x1024x1024_S8x16x1024x128_S8x16x1024x128_3_2_2_3_01_01_wf : DotDims.WF S8x16x1024x1024 S8x16x1024x128 S8x16x1024x128 [3] [2] [2] [3] [0, 1] [0, 1]

variable [Facts₀]

def dot_S8x16x1024x128_S8x16x1024x128_S8x16x1024x1024_3_3_2_2_01_01 : DotDims S8x16x1024x128 S8x16x1024x128 S8x16x1024x1024 where
  lhsContracting := [3]
  rhsContracting := [3]
  lhsNonContracting := [2]
  rhsNonContracting := [2]
  lhsBatch := [0, 1]
  rhsBatch := [0, 1]
  wf := dot_S8x16x1024x128_S8x16x1024x128_S8x16x1024x1024_3_3_2_2_01_01_wf
def dot_S8x16x1024x1024_S8x16x1024x128_S8x16x1024x128_3_2_2_3_01_01 : DotDims S8x16x1024x1024 S8x16x1024x128 S8x16x1024x128 where
  lhsContracting := [3]
  rhsContracting := [2]
  lhsNonContracting := [2]
  rhsNonContracting := [3]
  lhsBatch := [0, 1]
  rhsBatch := [0, 1]
  wf := dot_S8x16x1024x1024_S8x16x1024x128_S8x16x1024x128_3_2_2_3_01_01_wf

class Facts : Prop extends Facts₀ where

variable [Facts]
-- ==== Proof.Softmax.lean ====
/-
  Softmax attention over one head, on the extended reals, with no program in sight.

  A query row `q` and a key row `k` of 128 entries give a SCORE; a row of 1024 scores `s` is turned into weights
  `exp (s n - max s) / ∑ n', exp (s n' - max s)`, and the output entry is the weighted sum of a column `w` of
  values. The score is written in two ways that differ only in where the factor `1/128` sits:

    scaled   ∑ e, (q e · 2⁻⁷) · k e        the factor inside the sum, on the query
    divided  (∑ e, q e · k e) / 128        the sum divided afterwards

  On the extended reals a factor may not be moved across a sum in general (a row holding both infinities makes
  one side `⊥` where the other is not), so the two are equated for rows of REAL entries only, where both are the
  same real number: `2⁻⁷` is exactly the real `1/128`, and division by the real `128` is the product with `1/128`.
  Everything after the score — the maximum, the exponentials, their sum, the quotient, the weighted sum — is one
  function of the score row, so it is stated once (`softmaxDot`) and both forms of attention are instances of it.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-! ## The two float literals, as the reals they denote -/

/-- The word `0x3C000000` (exponent field 120, zero significand) denotes `2⁻⁷ = 1/128`. -/
theorem ofBits_inv128 : Ideal.ofBits .f32 0x3C000000#32 = ((1 / 128 : ℝ) : EReal) := by
  simp [Ideal.ofBits, Ideal.ieee, -EReal.coe_mul]; norm_num

/-- The word `0x43000000` (exponent field 134, zero significand) denotes `2⁷ = 128`. -/
theorem ofBits_128 : Ideal.ofBits .f32 0x43000000#32 = ((128 : ℝ) : EReal) := by
  simp [Ideal.ofBits, Ideal.ieee, -EReal.coe_mul]; norm_num

/-! ## A finite sum of reals, seen in the extended reals -/

/-- The inclusion of the reals in the extended reals carries a finite sum to the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The score, in its two forms -/

/-- The score with the factor `2⁻⁷` on each query entry, inside the sum. -/
def scoreScaled (q k : Fin 128 → EReal) : EReal :=
  ∑ e : Fin 128, q e * Ideal.ofBits .f32 0x3C000000#32 * k e

/-- The score as the plain inner product divided by `128`. -/
def scoreDivided (q k : Fin 128 → EReal) : EReal :=
  Ideal.div (∑ e : Fin 128, q e * k e) (Ideal.ofBits .f32 0x43000000#32)

/-- For rows of real entries the two scores are one real number: `∑ (a·(1/128))·b = (∑ a·b)·(1/128)`. -/
theorem scoreScaled_eq_scoreDivided (q k : Fin 128 → EReal) (hq : ∀ e, ∃ r : ℝ, q e = (r : EReal))
    (hk : ∀ e, ∃ r : ℝ, k e = (r : EReal)) : scoreScaled q k = scoreDivided q k := by
  choose a ha using hq
  choose b hb using hk
  unfold scoreScaled scoreDivided
  rw [ofBits_inv128, ofBits_128, Ideal.div_coe (by norm_num : (128 : ℝ) ≠ 0)]
  simp only [ha, hb, ← EReal.coe_mul, ← coe_sum]
  refine congrArg (fun x : ℝ => (x : EReal)) ?_
  rw [Finset.sum_mul]
  exact Finset.sum_congr rfl fun e _ => by ring

/-! ## From a row of scores to an output entry -/

/-- A row's maximum: the fold of `max` over its 1024 entries, started from what the word of `-∞` denotes. -/
def rowMax (s : Fin 1024 → EReal) : EReal :=
  (Finset.univ : Finset (Fin 1024)).fold max (Ideal.ofBits .f32 0xFF800000#32) s

/-- The softmax of the score row `s`, contracted with the value column `w`. -/
def softmaxDot (s w : Fin 1024 → EReal) : EReal :=
  ∑ n : Fin 1024, Ideal.div (Ideal.exp (s n - rowMax s)) (∑ n' : Fin 1024, Ideal.exp (s n' - rowMax s)) * w n

/-- Taking the maximum once more with the fold's own starting value changes nothing: the fold is above it. -/
theorem max_init_fold (b : EReal) (s : Fin 1024 → EReal) :
    max b ((Finset.univ : Finset (Fin 1024)).fold max b s) = (Finset.univ : Finset (Fin 1024)).fold max b s :=
  max_eq_right (Finset.le_fold_max b |>.mpr (Or.inl le_rfl))

/-! ## Attention over the whole arrays -/

/-- The shape of `q`, `k`, `v` and of the output: batch 8, heads 16, sequence 1024, head dimension 128. -/
abbrev QKV : Shape := ⟨4, ![8, 16, 1024, 128]⟩

/-- Output entry `(b, h, j, d)` with the score in its scaled form. -/
def attnScaledAt (q k v : QKV.Idx → EReal) (b : Fin 8) (h : Fin 16) (j : Fin 1024) (d : Fin 128) : EReal :=
  softmaxDot (fun n => scoreScaled (fun e => q (ix4 b h j e)) (fun e => k (ix4 b h n e))) (fun n => v (ix4 b h n d))

/-- Output entry `(b, h, j, d)` with the score in its divided form. -/
def attnDividedAt (q k v : QKV.Idx → EReal) (b : Fin 8) (h : Fin 16) (j : Fin 1024) (d : Fin 128) : EReal :=
  softmaxDot (fun n => scoreDivided (fun e => q (ix4 b h j e)) (fun e => k (ix4 b h n e))) (fun n => v (ix4 b h n d))

/-- The whole output array, scaled form. -/
def attnScaled (q k v : QKV.Idx → EReal) : QKV.Idx → EReal := fun i => attnScaledAt q k v (i 0) (i 1) (i 2) (i 3)

/-- The whole output array, divided form. -/
def attnDivided (q k v : QKV.Idx → EReal) : QKV.Idx → EReal := fun i => attnDividedAt q k v (i 0) (i 1) (i 2) (i 3)

/-- When every entry of `q` and of `k` is real the two forms of attention are one array (`v` is not constrained:
    it enters both in the same place). -/
theorem attnScaled_eq_attnDivided (q k v : QKV.Idx → EReal) (hq : ∀ i, ∃ r : ℝ, q i = (r : EReal))
    (hk : ∀ i, ∃ r : ℝ, k i = (r : EReal)) : attnScaled q k v = attnDivided q k v := by
  funext i
  unfold attnScaled attnDivided attnScaledAt attnDividedAt
  refine congrArg (fun s => softmaxDot s _) (funext fun n => ?_)
  exact scoreScaled_eq_scoreDivided _ _ (fun e => hq _) (fun e => hk _)

end Cert.Attention

end
-- ==== Proof.Finite.lean ====
/-
  What the precondition says: every entry of each input array is a real number.

  The precondition is the conjunction of three tests of one form, one per input array `x`: the `and` over all
  indices of `|x i| < +∞`. At the ideal values `|a|` is `max a (-a)`, the word `0x7F800000` denotes `⊤`, and an
  extended real `a` with `max a (-a) < ⊤` is neither `⊤` (then `a = ⊤`) nor `⊥` (then `-a = ⊤`): it is a real.
  An `and` over every index that came out 1 met a 1 at each index, and an `and` of two words is 1 only when both are.
-/
import proofs.«148451_j57758720197221_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word `0x7F800000` (all-ones exponent, zero significand, sign clear) denotes `+∞`. -/
theorem ofBits_posInf : Ideal.ofBits .f32 0x7F800000#32 = ⊤ := by
  simp [Ideal.ofBits, Ideal.ieee]

/-- An extended real whose absolute value is below `+∞` is a real. -/
theorem real_of_abs_lt_top (a : EReal) (h : max a (-a) < ⊤) : ∃ r : ℝ, a = (r : EReal) := by
  induction a using EReal.rec with
  | bot => simp at h
  | top => simp at h
  | coe r => exact ⟨r, rfl⟩

variable [Facts]

/-- One test: if the `and` over all indices of `|x i| < +∞` is 1, every entry of `x` is a real. -/
theorem real_of_all (x : FVec Ideal S8x16x1024x128 .f32)
    (h : Host.reduce IntOp.andi
        (cmpf .olt (Host.absf x) (broadcastInDim S8x16x1024x128 ![] Facts.bcast_S_S8x16x1024x128 (constant S_ .f32 0x7F800000#32)))
        (constantI S_ 1 1#1) Facts.reducesTo_S8x16x1024x128_S_d0_1_2_3 Facts.h_S_ ix0 = 1#1)
    (i : S8x16x1024x128.Idx) : ∃ r : ℝ, x i = (r : EReal) := by
  have e := Host.reduce_andi_all _ _ _ _ _ h i
  have e' : Ideal.cmp .olt (max (x i) (-(x i))) (Ideal.ofBits .f32 0x7F800000#32) = 1#1 := e
  rw [ofBits_posInf] at e'
  refine real_of_abs_lt_top _ ?_
  by_contra hn
  have hz : Ideal.cmp .olt (max (x i) (-(x i))) ⊤ = 0#1 := by
    show BitVec.ofBool (decide (max (x i) (-(x i)) < ⊤)) = 0#1
    rw [decide_eq_false hn]; rfl
  rw [hz] at e'
  exact absurd e' (by decide)

/-- The precondition, read: every entry of each of the three input arrays is a real. -/
theorem reals_of_pre (x0 x1 x2 : FVec Ideal S8x16x1024x128 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.Finite

end
-- ==== Proof.RefAttention.lean ====
/-
  The reference computes attention with the score in its DIVIDED form.

  Its result is read one operation at a time, at an output index `(b, h, j, d)`, from the outside in: the last
  contraction is a sum over the key position `n` of a weight times `v (b, h, n, d)`; the weight at `(b, h, j, n)` is
  the exponential there divided by the row's sum of exponentials; the exponential is taken of the score minus the row's
  maximum; the score is the inner product of query row `(b, h, j)` and key row `(b, h, n)` divided by `128`.
  Two details of the printed program vanish on the way. The row maximum is a reduce started from `-∞` and then
  maximised once more against a broadcast `-∞`: the second maximum is with the fold's own starting value, which
  the fold is already above. The row sum starts from the word of `0`, which denotes `0`.
  Each index function of the generated reading lemmas is identified with the plain coordinates it names.
-/
import proofs.«148451_j57758720197221_2_alg».proof.Proof.Gen.ReferenceIdeal.Read
import proofs.«148451_j57758720197221_2_alg».proof.Proof.Softmax

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

/-! ## The index functions of the reading lemmas, by coordinates -/

section Indices
variable (b : Fin 8) (h : Fin 16) (j n : Fin 1024)

theorem scoreLeft (e : Fin 128) : lidx_main_v0 (ix4 b h j n) e = ix4 b h j e :=
  funext fun a => by match a with | ⟨0, _⟩ => rfl | ⟨1, _⟩ => rfl | ⟨2, _⟩ => rfl | ⟨3, _⟩ => rfl

theorem scoreRight (e : Fin 128) : ridx_main_v0 (ix4 b h j n) e = ix4 b h n e :=
  funext fun a => by match a with | ⟨0, _⟩ => rfl | ⟨1, _⟩ => rfl | ⟨2, _⟩ => rfl | ⟨3, _⟩ => rfl

/-- The row an entry of the broadcast maximum comes from. -/
theorem maxRow : idx_main_v6 (idx_main_v7 (ix4 b h j n)) = ix3 b h j :=
  funext fun a => by match a with | ⟨0, _⟩ => rfl | ⟨1, _⟩ => rfl | ⟨2, _⟩ => rfl

/-- The row an entry of the broadcast sum comes from. -/
theorem sumRow : idx_main_v11 (idx_main_v12 (ix4 b h j n)) = ix3 b h j :=
  funext fun a => by match a with | ⟨0, _⟩ => rfl | ⟨1, _⟩ => rfl | ⟨2, _⟩ => rfl

theorem sumEntry : idx_main_v10 (ix3 b h j) n = ix4 b h j n :=
  funext fun a => by match a with | ⟨0, _⟩ => rfl | ⟨1, _⟩ => rfl | ⟨2, _⟩ => rfl | ⟨3, _⟩ => rfl

theorem outLeft (d : Fin 128) : lidx_main_v14 (ix4 b h j d) n = ix4 b h j n :=
  funext fun a => by match a with | ⟨0, _⟩ => rfl | ⟨1, _⟩ => rfl | ⟨2, _⟩ => rfl | ⟨3, _⟩ => rfl

theorem outRight (d : Fin 128) : ridx_main_v14 (ix4 b h j d) n = ix4 b h n d :=
  funext fun a => by match a with | ⟨0, _⟩ => rfl | ⟨1, _⟩ => rfl | ⟨2, _⟩ => rfl | ⟨3, _⟩ => rfl

/-- Reducing the last axis of the score array: the shapes' relation, decided. -/
theorem lastAxis : S8x16x1024x1024.Reduces [3] S8x16x1024 := by decide

/-- Row `(b, h, j)` with `n` put back on the reduced axis is entry `(b, h, j, n)`. -/
theorem maxEntry : lastAxis.lift (ix3 b h j) n = ix4 b h j n :=
  funext fun a => Fin.ext (by match a with | ⟨0, _⟩ => rfl | ⟨1, _⟩ => rfl | ⟨2, _⟩ => rfl | ⟨3, _⟩ => rfl)

end Indices

/-! ## The stages, at coordinates -/

variable (x0 x1 : (⟨S8x16x1024x128, .f32⟩ : BufTy).Contents (Elt Ideal))

/-- The score at `(b, h, j, n)`: query row `(b, h, j)` against key row `(b, h, n)`, divided by 128. -/
theorem score_at (b : Fin 8) (h : Fin 16) (j n : Fin 1024) :
    val_main_v2 (F := Ideal) x0 x1 (ix4 b h j n) = scoreDivided (fun e => x0 (ix4 b h j e)) (fun e => x1 (ix4 b h n e)) := by
  rw [val_main_v2_apply, val_main_v0_apply, val_main_v1_apply, val_main_cst_apply]
  simp only [scoreLeft, scoreRight]
  rfl

/-- The reduce over the last axis at row `(b, h, j)` is the row's maximum. -/
theorem max_at (b : Fin 8) (h : Fin 16) (j : Fin 1024) :
    val_main_v3 (F := Ideal) x0 x1 (ix3 b h j) = rowMax (fun n => val_main_v2 (F := Ideal) x0 x1 (ix4 b h j n)) := by
  unfold val_main_v3
  rw [Host.reduce_eq_fold_single (FloatOps.maximumf (F := Ideal) (φ := .f32)) _ _ reducesTo_S8x16x1024x1024_S8x16x1024_d3
    lastAxis h_S_ (ix3 b h j)]
  have hrow : (val_main_v2 (F := Ideal) x0 x1 ∘ lastAxis.lift (ix3 b h j)) = fun n => val_main_v2 (F := Ideal) x0 x1 (ix4 b h j n) :=
    funext fun n => congrArg (val_main_v2 (F := Ideal) x0 x1) (maxEntry b h j n)
  rw [hrow]
  rfl

/-- The exponential at `(b, h, j, n)`: of the score there minus the row's maximum. -/
theorem exp_at (b : Fin 8) (h : Fin 16) (j n : Fin 1024) :
    val_main_v9 (F := Ideal) x0 x1 (ix4 b h j n)
      = Ideal.exp (val_main_v2 (F := Ideal) x0 x1 (ix4 b h j n) - rowMax (fun n' => val_main_v2 (F := Ideal) x0 x1 (ix4 b h j n'))) := by
  rw [val_main_v9_apply, val_main_v8_apply, val_main_v7_apply, val_main_v6_apply, maxRow, val_main_v5_apply, val_main_v4_apply,
    val_main_cst_1_apply, max_at]
  show Ideal.exp (_ - max (Ideal.ofBits .f32 0xFF800000#32) (rowMax _)) = _
  unfold rowMax
  rw [max_init_fold]

/-- The broadcast row sum at `(b, h, j, n)`: the sum of the row's exponentials. -/
theorem sum_at (b : Fin 8) (h : Fin 16) (j n : Fin 1024) :
    val_main_v12 (F := Ideal) x0 x1 (ix4 b h j n) = ∑ n' : Fin 1024, val_main_v9 (F := Ideal) x0 x1 (ix4 b h j n') := by
  rw [val_main_v12_apply, val_main_v11_apply, sumRow, val_main_v10_apply, val_main_cst_2_apply]
  simp only [sumEntry]
  show Ideal.ofBits .f32 0x00000000#32 + _ = _
  rw [Ideal.ofBits_zero_f32, zero_add]

/-! ## The result -/

/-- The reference's result, as a function of its three arguments, is attention with the divided score. -/
theorem result_eq (x2 : (⟨S8x16x1024x128, .f32⟩ : BufTy).Contents (Elt Ideal)) :
    val_main_v14 (F := Ideal) x0 x1 x2 = attnDivided x0 x1 x2 := by
  funext i
  obtain ⟨b, h, j, d, rfl⟩ : ∃ (b : Fin 8) (h : Fin 16) (j : Fin 1024) (d : Fin 128), i = ix4 b h j d :=
    ⟨i 0, i 1, i 2, i 3, eq_ix4 i⟩
  rw [val_main_v14_apply]
  show _ = attnDividedAt x0 x1 x2 b h j d
  unfold attnDividedAt softmaxDot
  refine Finset.sum_congr rfl fun n _ => ?_
  rw [outLeft, outRight, val_main_v13_apply, sum_at]
  simp only [exp_at, score_at]
  rfl

end Cert.ReferenceIdeal.RefValue

end
-- ==== Proof.BodyAttention.lean ====
/-
  What the kernel body computes on one query tile: attention with the score in its SCALED form.

  At a grid point the body holds a tile of 256 query rows (a `[1,1,256,128]` block), and all 1024 key rows and value rows
  of the same head (two `[1,1,1024,128]` blocks). Its one store is read here in four stages, each a function of the
  stage before:

    scores        [256,1024]  entry (r, n) = ∑ e, (query (r, e) · 2⁻⁷) · key (n, e)        a matrix product, the factor on the query
    exponentials  [256,1024]  entry (r, n) = exp (score (r, n) − the maximum of score row r)
    weights       [256,1024]  entry (r, n) = exponential (r, n) / the sum of exponential row r
    output        [1,1,256,128]  entry (0, 0, r, d) = ∑ n, weight (r, n) · value (n, d)      the second matrix product

  The narrowing of the operands to sixteen bits before each product is the identity at the ideal values. A matrix product
  into a zero accumulator is the sum over the one contracted axis; the row maximum and the row sum are a reduction over
  the lane axis, re-laid from `[256]` to a `[256,1]` column and spread over the 1024 lanes, so at `(r, n)` they are row `r`'s.
  Composed, entry `(0, 0, r, d)` of the store is the softmax of tile row `r`'s scaled scores against column `d` of the values.
-/
import proofs.«148451_j57758720197221_2_alg».proof.Proof.Gen.KernelIdeal.Skeleton
import proofs.«148451_j57758720197221_2_alg».proof.Proof.Softmax
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Cert.Attention
open Idealize.ShloMosaic Idealize.ShloMosaic.ValueIdx

/-! ## Blocks viewed as matrices, and back -/

/-- The query tile viewed `[256,128]`: entry `(r, e)` is entry `(0, 0, r, e)` of the block. -/
theorem tile_apply (x : Vec Ideal S1x1x256x128 .f32) (r : Fin 256) (e : Fin 128) :
    shapeCast S256x128 x shapeCasts_S1x1x256x128_S256x128 (ix2 r e) = x (ix4 (0 : Fin 1) (0 : Fin 1) r e) :=
  shapeCast_apply x shapeCasts_S1x1x256x128_S256x128 (ix2 r e) (ix4 (0 : Fin 1) (0 : Fin 1) r e) (by
    rw [Shape.rowMajor_val_four, Shape.rowMajor_val_two]
    show ((0 * 1 + 0) * 256 + r.val) * 128 + e.val = r.val * 128 + e.val
    omega)

/-- A key or value block viewed `[1024,128]`: entry `(n, e)` is entry `(0, 0, n, e)` of the block. -/
theorem rows_apply (x : Vec Ideal S1x1x1024x128 .f32) (n : Fin 1024) (e : Fin 128) :
    shapeCast S1024x128 x shapeCasts_S1x1x1024x128_S1024x128 (ix2 n e) = x (ix4 (0 : Fin 1) (0 : Fin 1) n e) :=
  shapeCast_apply x shapeCasts_S1x1x1024x128_S1024x128 (ix2 n e) (ix4 (0 : Fin 1) (0 : Fin 1) n e) (by
    rw [Shape.rowMajor_val_four, Shape.rowMajor_val_two]
    show ((0 * 1 + 0) * 1024 + n.val) * 128 + e.val = n.val * 128 + e.val
    omega)

/-- A `[256,128]` result stored as a block: entry `(0, 0, r, d)` is entry `(r, d)` of the matrix. -/
theorem block_apply (y : FVec Ideal S256x128 .f32) (r : Fin 256) (d : Fin 128) :
    shapeCast S1x1x256x128 y shapeCasts_S256x128_S1x1x256x128 (ix4 (0 : Fin 1) (0 : Fin 1) r d) = y (ix2 r d) :=
  shapeCast_apply y shapeCasts_S256x128_S1x1x256x128 (ix4 (0 : Fin 1) (0 : Fin 1) r d) (ix2 r d) (by
    rw [Shape.rowMajor_val_four, Shape.rowMajor_val_two]
    show r.val * 128 + d.val = ((0 * 1 + 0) * 256 + r.val) * 128 + d.val
    omega)

/-- A per-row value `[256]` re-laid as a column and spread over the lanes: at `(r, n)` it is row `r`'s. -/
theorem column_apply (y : FVec Ideal S256 .f32) (r : Fin 256) (n : Fin 1024) :
    broadcastTo S256x1024 (shapeCast S256x1 y shapeCasts_S256_S256x1) broadcasts_S256x1_S256x1024 (ix2 r n) = y (ix1 r) := by
  refine (broadcastTo_apply _ broadcasts_S256x1_S256x1024 (ix2 r n) (ix2 r (0 : Fin 1)) (fun a => by
    match a with
    | ⟨0, _⟩ => show r.val = if (256 : Nat) = 1 then 0 else r.val; rw [if_neg (by decide)]
    | ⟨1, _⟩ => show (0 : Nat) = if (1 : Nat) = 1 then 0 else n.val; rw [if_pos rfl])).trans ?_
  exact shapeCast_apply y shapeCasts_S256_S256x1 (ix2 r (0 : Fin 1)) (ix1 r) (by
    rw [Shape.rowMajor_val_one, Shape.rowMajor_val_two]
    show r.val = r.val * 1 + 0
    omega)

/-- Lane `n` of row `r`, as the reduction over the lane axis names it. -/
theorem lane_eq (r : Fin 256) (n : Fin 1024) : reduces_S256x1024_S256.lift (ix1 r) n = ix2 r n :=
  funext fun a => Fin.ext (by match a with | ⟨0, _⟩ => rfl | ⟨1, _⟩ => rfl)

/-! ## The two matrix products, at an entry -/

/-! The operand indices of the score product at output entry `j` and contraction position `q`, one coordinate at a time:
    the query operand is read at (row of `j`, `q`), the key operand at (column of `j`, `q`). -/

theorem scoreLhs_row (j : S256x1024.Idx) (q : dot_S256x128_S1024x128_S256x1024_1_1_0_0_n_n.contr.Idx) : (dot_S256x128_S1024x128_S256x1024_1_1_0_0_n_n.lhsIdx j q 0).val = (j 0).val := by
  unfold DotDims.lhsIdx
  rw [dif_neg (show ¬(0 : Fin S256x128.rank) ∈ dot_S256x128_S1024x128_S256x1024_1_1_0_0_n_n.lhsBatch by decide),
    dif_pos (show (0 : Fin S256x128.rank) ∈ dot_S256x128_S1024x128_S256x1024_1_1_0_0_n_n.lhsNonContracting by decide)]
  rfl
theorem scoreLhs_contr (j : S256x1024.Idx) (q : dot_S256x128_S1024x128_S256x1024_1_1_0_0_n_n.contr.Idx) : (dot_S256x128_S1024x128_S256x1024_1_1_0_0_n_n.lhsIdx j q 1).val = (q ⟨0, by decide⟩).val :=
  dot_S256x128_S1024x128_S256x1024_1_1_0_0_n_n.lhsIdx_val_of_single rfl j q
theorem scoreRhs_row (j : S256x1024.Idx) (q : dot_S256x128_S1024x128_S256x1024_1_1_0_0_n_n.contr.Idx) : (dot_S256x128_S1024x128_S256x1024_1_1_0_0_n_n.rhsIdx j q 0).val = (j 1).val := by
  unfold DotDims.rhsIdx
  rw [dif_neg (show ¬(0 : Fin S1024x128.rank) ∈ dot_S256x128_S1024x128_S256x1024_1_1_0_0_n_n.rhsBatch by decide),
    dif_pos (show (0 : Fin S1024x128.rank) ∈ dot_S256x128_S1024x128_S256x1024_1_1_0_0_n_n.rhsNonContracting by decide)]
  rfl
theorem scoreRhs_contr (j : S256x1024.Idx) (q : dot_S256x128_S1024x128_S256x1024_1_1_0_0_n_n.contr.Idx) : (dot_S256x128_S1024x128_S256x1024_1_1_0_0_n_n.rhsIdx j q 1).val = (q ⟨0, by decide⟩).val :=
  dot_S256x128_S1024x128_S256x1024_1_1_0_0_n_n.rhsIdx_val_of_single rfl j q

/-- Query tile against keys, contracting the head dimension of both: entry `(r, n)` is `∑ e, A (r, e) · B (n, e)`. -/
theorem scoreProduct_apply (A : FVec Ideal S256x128 .bf16) (B : FVec Ideal S1024x128 .bf16) (r : Fin 256) (n : Fin 1024) :
    matmul dot_S256x128_S1024x128_S256x1024_1_1_0_0_n_n none A B (constant (F := Ideal) S256x1024 .f32 0x00000000#32) (ix2 r n)
      = ∑ e : Fin 128, (A (ix2 r e) : EReal) * (B (ix2 n e) : EReal) := by
  refine (Ideal.matmul_constant_zero_apply dot_S256x128_S1024x128_S256x1024_1_1_0_0_n_n none A B (ix2 r n)).trans ?_
  rw [← Equiv.sum_comp (contrEquiv1 dot_S256x128_S1024x128_S256x1024_1_1_0_0_n_n 128 rfl rfl).symm]
  refine Finset.sum_congr rfl fun e _ => ?_
  have he := contrEquiv1_symm_val dot_S256x128_S1024x128_S256x1024_1_1_0_0_n_n 128 rfl rfl e
  have el : dot_S256x128_S1024x128_S256x1024_1_1_0_0_n_n.lhsIdx (ix2 r n) ((contrEquiv1 dot_S256x128_S1024x128_S256x1024_1_1_0_0_n_n 128 rfl rfl).symm e) = ix2 r e :=
    funext fun a => Fin.ext (by
      match a with
      | ⟨0, _⟩ => exact scoreLhs_row _ _
      | ⟨1, _⟩ => exact (scoreLhs_contr _ _).trans he)
  have er : dot_S256x128_S1024x128_S256x1024_1_1_0_0_n_n.rhsIdx (ix2 r n) ((contrEquiv1 dot_S256x128_S1024x128_S256x1024_1_1_0_0_n_n 128 rfl rfl).symm e) = ix2 n e :=
    funext fun a => Fin.ext (by
      match a with
      | ⟨0, _⟩ => exact scoreRhs_row _ _
      | ⟨1, _⟩ => exact (scoreRhs_contr _ _).trans he)
  rw [el, er]

/-! The operand indices of the output product: the weights are read at (row of `j`, `q`), the values at (`q`, column of `j`). -/

theorem outLhs_row (j : S256x128.Idx) (q : dot_S256x1024_S1024x128_S256x128_1_0_0_1_n_n.contr.Idx) : (dot_S256x1024_S1024x128_S256x128_1_0_0_1_n_n.lhsIdx j q 0).val = (j 0).val := by
  unfold DotDims.lhsIdx
  rw [dif_neg (show ¬(0 : Fin S256x1024.rank) ∈ dot_S256x1024_S1024x128_S256x128_1_0_0_1_n_n.lhsBatch by decide),
    dif_pos (show (0 : Fin S256x1024.rank) ∈ dot_S256x1024_S1024x128_S256x128_1_0_0_1_n_n.lhsNonContracting by decide)]
  rfl
theorem outLhs_contr (j : S256x128.Idx) (q : dot_S256x1024_S1024x128_S256x128_1_0_0_1_n_n.contr.Idx) : (dot_S256x1024_S1024x128_S256x128_1_0_0_1_n_n.lhsIdx j q 1).val = (q ⟨0, by decide⟩).val :=
  dot_S256x1024_S1024x128_S256x128_1_0_0_1_n_n.lhsIdx_val_of_single rfl j q
theorem outRhs_contr (j : S256x128.Idx) (q : dot_S256x1024_S1024x128_S256x128_1_0_0_1_n_n.contr.Idx) : (dot_S256x1024_S1024x128_S256x128_1_0_0_1_n_n.rhsIdx j q 0).val = (q ⟨0, by decide⟩).val :=
  dot_S256x1024_S1024x128_S256x128_1_0_0_1_n_n.rhsIdx_val_of_single rfl j q
theorem outRhs_col (j : S256x128.Idx) (q : dot_S256x1024_S1024x128_S256x128_1_0_0_1_n_n.contr.Idx) : (dot_S256x1024_S1024x128_S256x128_1_0_0_1_n_n.rhsIdx j q 1).val = (j 1).val := by
  unfold DotDims.rhsIdx
  rw [dif_neg (show ¬(1 : Fin S1024x128.rank) ∈ dot_S256x1024_S1024x128_S256x128_1_0_0_1_n_n.rhsBatch by decide),
    dif_pos (show (1 : Fin S1024x128.rank) ∈ dot_S256x1024_S1024x128_S256x128_1_0_0_1_n_n.rhsNonContracting by decide)]
  rfl

/-- Weights against values, contracting the key position: entry `(r, d)` is `∑ n, P (r, n) · W (n, d)`. -/
theorem outputProduct_apply (P : FVec Ideal S256x1024 .bf16) (W : FVec Ideal S1024x128 .bf16) (r : Fin 256) (d : Fin 128) :
    matmul dot_S256x1024_S1024x128_S256x128_1_0_0_1_n_n none P W (constant (F := Ideal) S256x128 .f32 0x00000000#32) (ix2 r d)
      = ∑ n : Fin 1024, (P (ix2 r n) : EReal) * (W (ix2 n d) : EReal) := by
  refine (Ideal.matmul_constant_zero_apply dot_S256x1024_S1024x128_S256x128_1_0_0_1_n_n none P W (ix2 r d)).trans ?_
  rw [← Equiv.sum_comp (contrEquiv1 dot_S256x1024_S1024x128_S256x128_1_0_0_1_n_n 1024 rfl rfl).symm]
  refine Finset.sum_congr rfl fun n _ => ?_
  have hn := contrEquiv1_symm_val dot_S256x1024_S1024x128_S256x128_1_0_0_1_n_n 1024 rfl rfl n
  have el : dot_S256x1024_S1024x128_S256x128_1_0_0_1_n_n.lhsIdx (ix2 r d) ((contrEquiv1 dot_S256x1024_S1024x128_S256x128_1_0_0_1_n_n 1024 rfl rfl).symm n) = ix2 r n :=
    funext fun a => Fin.ext (by
      match a with
      | ⟨0, _⟩ => exact outLhs_row _ _
      | ⟨1, _⟩ => exact (outLhs_contr _ _).trans hn)
  have er : dot_S256x1024_S1024x128_S256x128_1_0_0_1_n_n.rhsIdx (ix2 r d) ((contrEquiv1 dot_S256x1024_S1024x128_S256x128_1_0_0_1_n_n 1024 rfl rfl).symm n) = ix2 n d :=
    funext fun a => Fin.ext (by
      match a with
      | ⟨0, _⟩ => exact (outRhs_contr _ _).trans hn
      | ⟨1, _⟩ => exact outRhs_col _ _)
  rw [el, er]

/-! ## The two lane reductions, at a row -/

/-- The lane maximum of row `r`, from the word of `-∞`: the row's maximum. -/
theorem laneMax_apply (X : FVec Ideal S256x1024 .f32) (hφ : FKind.Formats .f32)
    (hacc : (0xFF800000#32 : BitVec 32) = FKind.maximumf.neutral .f32 hφ) (r : Fin 256) :
    multiReduction (F := Ideal) .maximumf [1] S256 X 0xFF800000#32 reduces_S256x1024_S256 hφ hacc (ix1 r)
      = rowMax (fun n => X (ix2 r n)) := by
  refine (Ideal.multiReduction_maximumf_single X 0xFF800000#32 reduces_S256x1024_S256 hφ hacc (ix1 r)).trans ?_
  have hrow : (X ∘ reduces_S256x1024_S256.lift (ix1 r)) = fun n => X (ix2 r n) := funext fun n => congrArg X (lane_eq r n)
  rw [hrow]
  rfl

/-- The lane sum of row `r`, from the word of `0`: the row's sum. -/
theorem laneSum_apply (E : FVec Ideal S256x1024 .f32) (hφ : FKind.Formats .f32)
    (hacc : (0x00000000#32 : BitVec 32) = FKind.add.neutral .f32 hφ) (r : Fin 256) :
    multiReduction (F := Ideal) .add [1] S256 E 0x00000000#32 reduces_S256x1024_S256 hφ hacc (ix1 r)
      = ∑ n : Fin 1024, E (ix2 r n) := by
  refine (Ideal.multiReduction_add_single E 0x00000000#32 reduces_S256x1024_S256 hφ hacc (ix1 r)).trans ?_
  exact Finset.sum_congr rfl fun n _ => congrArg E (lane_eq r n)

/-! ## The four stages of the store's value -/

/-- The scores of the tile: the query tile, each entry times `2⁻⁷`, against the keys. -/
def scores (v0 : Vec Ideal S1x1x256x128 .f32) (v5 : Vec Ideal S1x1x1024x128 .f32) : FVec Ideal S256x1024 .f32 :=
  have v1 : FVec Ideal S256x128 .f32 := shapeCast S256x128 v0 shapeCasts_S1x1x256x128_S256x128
  have cst : Ideal .f32 := Scalar.ofBits .f32 0x3C000000#32
  have v2 : FVec Ideal S256x128 .f32 := broadcast S256x128 cst
  have v3 : FVec Ideal S256x128 .f32 := mulf v1 v2
  have v4 : FVec Ideal S256x128 .bf16 := truncf .bf16 v3 bitsLt_bf16_f32
  have v6 : FVec Ideal S1024x128 .f32 := shapeCast S1024x128 v5 shapeCasts_S1x1x1024x128_S1024x128
  have v7 : FVec Ideal S1024x128 .bf16 := truncf .bf16 v6 bitsLt_bf16_f32
  have cst_11 : FVec Ideal S256x1024 .f32 := constant S256x1024 .f32 0x00000000#32
  matmul dot_S256x128_S1024x128_S256x1024_1_1_0_0_n_n none v4 v7 cst_11

/-- The exponentials: of each score minus its row's maximum. -/
def exponentials (v11 : FVec Ideal S256x1024 .f32) : FVec Ideal S256x1024 .f32 :=
  have v12 : FVec Ideal S256 .f32 := multiReduction .maximumf [1] S256 v11 0xFF800000#32 reduces_S256x1024_S256 (.inl rfl) rfl
  have v13 : FVec Ideal S256x1 .f32 := shapeCast S256x1 v12 shapeCasts_S256_S256x1
  have v14 : FVec Ideal S256x1024 .f32 := broadcastTo S256x1024 v13 broadcasts_S256x1_S256x1024
  have v15 : FVec Ideal S256x1024 .f32 := subf v11 v14
  exp v15

/-- The weights: each exponential divided by its row's sum. -/
def weights (v16 : FVec Ideal S256x1024 .f32) : FVec Ideal S256x1024 .bf16 :=
  have v17 : FVec Ideal S256 .f32 := multiReduction .add [1] S256 v16 0x00000000#32 reduces_S256x1024_S256 (.inl rfl) rfl
  have v18 : FVec Ideal S256x1 .f32 := shapeCast S256x1 v17 shapeCasts_S256_S256x1
  have v19 : FVec Ideal S256x1024 .f32 := broadcastTo S256x1024 v18 broadcasts_S256x1_S256x1024
  have v20 : FVec Ideal S256x1024 .f32 := divf v16 v19
  truncf .bf16 v20 bitsLt_bf16_f32

/-- The output block: the weights against the values. -/
def output (v21 : FVec Ideal S256x1024 .bf16) (v8 : Vec Ideal S1x1x1024x128 .f32) : FVec Ideal S1x1x256x128 .f32 :=
  have v9 : FVec Ideal S1024x128 .f32 := shapeCast S1024x128 v8 shapeCasts_S1x1x1024x128_S1024x128
  have v10 : FVec Ideal S1024x128 .bf16 := truncf .bf16 v9 bitsLt_bf16_f32
  have cst_14 : FVec Ideal S256x128 .f32 := constant S256x128 .f32 0x00000000#32
  have v22 : FVec Ideal S256x128 .f32 := matmul dot_S256x1024_S1024x128_S256x128_1_0_0_1_n_n none v21 v10 cst_14
  shapeCast S1x1x256x128 v22 shapeCasts_S256x128_S1x1x256x128

/-- The value the body stores is the four stages composed. -/
theorem payload_eq (v0 : Vec Ideal S1x1x256x128 .f32) (v5 v8 : Vec Ideal S1x1x1024x128 .f32) :
    k0_pay1 (F := Ideal) v0 v5 v8 = output (weights (exponentials (scores v0 v5))) v8 := rfl

/-! ## Each stage at an entry -/

theorem scores_apply (v0 : Vec Ideal S1x1x256x128 .f32) (v5 : Vec Ideal S1x1x1024x128 .f32) (r : Fin 256) (n : Fin 1024) :
    scores v0 v5 (ix2 r n)
      = scoreScaled (fun e => v0 (ix4 (0 : Fin 1) (0 : Fin 1) r e)) (fun e => v5 (ix4 (0 : Fin 1) (0 : Fin 1) n e)) := by
  unfold scores scoreScaled
  try dsimp only
  refine (scoreProduct_apply _ _ r n).trans ?_
  refine Finset.sum_congr rfl fun e _ => ?_
  show (shapeCast S256x128 v0 shapeCasts_S1x1x256x128_S256x128 (ix2 r e) * Ideal.ofBits .f32 0x3C000000#32 : EReal)
      * (shapeCast S1024x128 v5 shapeCasts_S1x1x1024x128_S1024x128 (ix2 n e) : EReal) = _
  rw [tile_apply, rows_apply]

theorem exponentials_apply (X : FVec Ideal S256x1024 .f32) (r : Fin 256) (n : Fin 1024) :
    exponentials X (ix2 r n) = Ideal.exp (X (ix2 r n) - rowMax (fun n' => X (ix2 r n'))) := by
  unfold exponentials
  try dsimp only
  refine congrArg (fun z : EReal => Ideal.exp (X (ix2 r n) - z)) ?_
  exact (column_apply _ r n).trans (laneMax_apply X _ _ r)

theorem weights_apply (E : FVec Ideal S256x1024 .f32) (r : Fin 256) (n : Fin 1024) :
    (weights E (ix2 r n) : EReal) = Ideal.div (E (ix2 r n)) (∑ n' : Fin 1024, E (ix2 r n')) := by
  unfold weights
  try dsimp only
  refine congrArg (fun z : EReal => Ideal.div (E (ix2 r n)) z) ?_
  exact (column_apply _ r n).trans (laneSum_apply E _ _ r)

theorem output_apply (P : FVec Ideal S256x1024 .bf16) (v8 : Vec Ideal S1x1x1024x128 .f32) (r : Fin 256) (d : Fin 128) :
    output P v8 (ix4 (0 : Fin 1) (0 : Fin 1) r d)
      = ∑ n : Fin 1024, (P (ix2 r n) : EReal) * (v8 (ix4 (0 : Fin 1) (0 : Fin 1) n d) : EReal) := by
  unfold output
  try dsimp only
  refine (block_apply _ r d).trans ?_
  refine (outputProduct_apply _ _ r d).trans ?_
  refine Finset.sum_congr rfl fun n _ => ?_
  show (P (ix2 r n) : EReal) * (shapeCast S1024x128 v8 shapeCasts_S1x1x1024x128_S1024x128 (ix2 n d) : EReal) = _
  rw [rows_apply]

/-! ## The store's value at an entry -/

/-- Entry `(0, 0, r, d)` of what the body stores: the softmax of tile row `r`'s scaled scores against all 1024 keys,
    contracted with column `d` of the values. -/
theorem payload_apply (v0 : Vec Ideal S1x1x256x128 .f32) (v5 v8 : Vec Ideal S1x1x1024x128 .f32) (r : Fin 256) (d : Fin 128) :
    k0_pay1 (F := Ideal) v0 v5 v8 (ix4 (0 : Fin 1) (0 : Fin 1) r d)
      = softmaxDot
          (fun n => scoreScaled (fun e => v0 (ix4 (0 : Fin 1) (0 : Fin 1) r e)) (fun e => v5 (ix4 (0 : Fin 1) (0 : Fin 1) n e)))
          (fun n => v8 (ix4 (0 : Fin 1) (0 : Fin 1) n d)) := by
  rw [payload_eq, output_apply]
  unfold softmaxDot
  refine Finset.sum_congr rfl fun n _ => ?_
  rw [weights_apply]
  simp only [exponentials_apply, scores_apply]

end Cert.KernelIdeal.BodyValue

end
-- ==== Proof.KernelArray.lean ====
/-
  From tiles to the whole output array: the kernel computes attention with the score in its scaled form.

  The grid has 8 · 16 · 4 = 512 points; point `t` is (batch `t / 64`, head `t / 4 % 16`, query tile `t % 4`). At it the
  output window and the query window hold rows `256·(t % 4) … 256·(t % 4) + 255` of that batch and head, and the key and
  value windows hold all 1024 rows of that batch and head. These relations between the printed index maps are decided once
  over the grid. So an element of the query tile, and of the key and value blocks, is an element of the argument array
  at the same batch and head as the output element, and what point `t` writes back is tile `t` of ONE whole-array function,
  attention of the three argument arrays. Every output index lies in the tile of the point its batch, head and row name,
  every point writes back, and so the output array ends holding that function.
-/
import proofs.«148451_j57758720197221_2_alg».proof.Proof.Gen.KernelIdeal.Value
import proofs.«148451_j57758720197221_2_alg».proof.Proof.BodyAttention
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyValue Cert.Attention Idealize.ShloMosaic.ValueIdx

variable (m : (ℓ : Loc nD τ sig) → Buf (Elt Ideal) ℓ) (ρ : Dev nD → PrngReg)

theorem zeros : (![0, 0, 0, 0] : Fin 4 → Nat) = fun _ => 0 := funext fun a => by fin_cases a <;> rfl

/-! ## The index maps over the grid -/

/-- The printed index maps, decided over the 512 points: the output tile's block index is (batch, head, query tile, 0) of
    the point in row-major order; the query window moves with it; the key and value windows follow it on batch and head
    and stay at block 0 on the two block axes. -/
theorem tile_index : ∀ t : Fin cfg0.N,
    win0_3.index t (0 : Fin 4) = t.val / 64 ∧ win0_3.index t (1 : Fin 4) = t.val / 4 % 16
    ∧ win0_3.index t (2 : Fin 4) = t.val % 4 ∧ win0_3.index t (3 : Fin 4) = 0
    ∧ win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0 :=
  (by decide +kernel : ∀ t : Fin grid0.N, _)

/-! ## Elements of the windows' blocks, as elements of the argument arrays -/

/-- An element of the query tile at point `t` is the element of `q` at the tile's batch and head, row `256 · tile + r`. -/
theorem query_apply (c : Dev nD) (t : Fin cfg0.N) (r : Fin 256) (e : Fin 128) (k : S8x16x1024x128.Idx)
    (h0 : (k 0).val = win0_0.index t (0 : Fin 4)) (h1 : (k 1).val = win0_0.index t (1 : Fin 4))
    (h2 : (k 2).val = win0_0.index t (2 : Fin 4) * 256 + r.val) (h3 : (k 3).val = win0_0.index t (3 : Fin 4) * 128 + e.val) :
    (iblk m c 0 t : Vec Ideal S1x1x256x128 .f32) (ix4 (0 : Fin 1) (0 : Fin 1) r e) = V m c main_arg0 k := by
  show V m c main_arg0 (((cfg0.win 0).blk t).view.emb (ix4 (0 : Fin 1) (0 : Fin 1) r e)) = V m c main_arg0 k
  refine congrArg (V m c main_arg0) (funext fun a => Fin.ext ?_)
  match a with
  | ⟨0, _⟩ => show win0_0.index t (0 : Fin 4) * 1 + 1 * 0 = (k 0).val; omega
  | ⟨1, _⟩ => show win0_0.index t (1 : Fin 4) * 1 + 1 * 0 = (k 1).val; omega
  | ⟨2, _⟩ => show win0_0.index t (2 : Fin 4) * 256 + 1 * r.val = (k 2).val; omega
  | ⟨3, _⟩ => show win0_0.index t (3 : Fin 4) * 128 + 1 * e.val = (k 3).val; omega

/-- An element of the key block at point `t` is the element of `k` at the block's batch and head. -/
theorem key_apply (c : Dev nD) (t : Fin cfg0.N) (n : Fin 1024) (e : Fin 128) (k : S8x16x1024x128.Idx)
    (h0 : (k 0).val = win0_1.index t (0 : Fin 4)) (h1 : (k 1).val = win0_1.index t (1 : Fin 4))
    (h2 : (k 2).val = win0_1.index t (2 : Fin 4) * 1024 + n.val) (h3 : (k 3).val = win0_1.index t (3 : Fin 4) * 128 + e.val) :
    (iblk m c 1 t : Vec Ideal S1x1x1024x128 .f32) (ix4 (0 : Fin 1) (0 : Fin 1) n e) = V m c main_arg1 k := by
  show V m c main_arg1 (((cfg0.win 1).blk t).view.emb (ix4 (0 : Fin 1) (0 : Fin 1) n e)) = V m c main_arg1 k
  refine congrArg (V m c main_arg1) (funext fun a => Fin.ext ?_)
  match a with
  | ⟨0, _⟩ => show win0_1.index t (0 : Fin 4) * 1 + 1 * 0 = (k 0).val; omega
  | ⟨1, _⟩ => show win0_1.index t (1 : Fin 4) * 1 + 1 * 0 = (k 1).val; omega
  | ⟨2, _⟩ => show win0_1.index t (2 : Fin 4) * 1024 + 1 * n.val = (k 2).val; omega
  | ⟨3, _⟩ => show win0_1.index t (3 : Fin 4) * 128 + 1 * e.val = (k 3).val; omega

/-- An element of the value block at point `t` is the element of `v` at the block's batch and head. -/
theorem value_apply (c : Dev nD) (t : Fin cfg0.N) (n : Fin 1024) (d : Fin 128) (k : S8x16x1024x128.Idx)
    (h0 : (k 0).val = win0_2.index t (0 : Fin 4)) (h1 : (k 1).val = win0_2.index t (1 : Fin 4))
    (h2 : (k 2).val = win0_2.index t (2 : Fin 4) * 1024 + n.val) (h3 : (k 3).val = win0_2.index t (3 : Fin 4) * 128 + d.val) :
    (iblk m c 2 t : Vec Ideal S1x1x1024x128 .f32) (ix4 (0 : Fin 1) (0 : Fin 1) n d) = V m c main_arg2 k := by
  show V m c main_arg2 (((cfg0.win 2).blk t).view.emb (ix4 (0 : Fin 1) (0 : Fin 1) n d)) = V m c main_arg2 k
  refine congrArg (V m c main_arg2) (funext fun a => Fin.ext ?_)
  match a with
  | ⟨0, _⟩ => show win0_2.index t (0 : Fin 4) * 1 + 1 * 0 = (k 0).val; omega
  | ⟨1, _⟩ => show win0_2.index t (1 : Fin 4) * 1 + 1 * 0 = (k 1).val; omega
  | ⟨2, _⟩ => show win0_2.index t (2 : Fin 4) * 1024 + 1 * n.val = (k 2).val; omega
  | ⟨3, _⟩ => show win0_2.index t (3 : Fin 4) * 128 + 1 * d.val = (k 3).val; omega

/-- Where element `(0, 0, r, d)` of the output tile at point `t` sits in the output array. -/
theorem out_coords (t : Fin cfg0.N) (r : Fin 256) (d : Fin 128) :
    ((((cfg0.win 3).blk t).view.emb (ix4 (0 : Fin 1) (0 : Fin 1) r d) : S8x16x1024x128.Idx) 0).val = win0_3.index t (0 : Fin 4)
    ∧ ((((cfg0.win 3).blk t).view.emb (ix4 (0 : Fin 1) (0 : Fin 1) r d) : S8x16x1024x128.Idx) 1).val = win0_3.index t (1 : Fin 4)
    ∧ ((((cfg0.win 3).blk t).view.emb (ix4 (0 : Fin 1) (0 : Fin 1) r d) : S8x16x1024x128.Idx) 2).val = win0_3.index t (2 : Fin 4) * 256 + r.val
    ∧ ((((cfg0.win 3).blk t).view.emb (ix4 (0 : Fin 1) (0 : Fin 1) r d) : S8x16x1024x128.Idx) 3).val = win0_3.index t (3 : Fin 4) * 128 + d.val := by
  refine ⟨?_, ?_, ?_, ?_⟩
  · show win0_3.index t (0 : Fin 4) * 1 + 1 * 0 = _; omega
  · show win0_3.index t (1 : Fin 4) * 1 + 1 * 0 = _; omega
  · show win0_3.index t (2 : Fin 4) * 256 + 1 * r.val = _; omega
  · show win0_3.index t (3 : Fin 4) * 128 + 1 * d.val = _; omega

/-! ## What a point writes back -/

/-- The body's value at point `t`, at element `(0, 0, r, d)` of the tile, is attention of the argument arrays at any array
    index `I` with the tile's batch and head, row `256 · tile + r` and column `d`. -/
theorem tile_value_at (c : Dev nD) (t : Fin cfg0.N) (r : Fin 256) (d : Fin 128) (I : S8x16x1024x128.Idx)
    (o0 : (I 0).val = win0_3.index t (0 : Fin 4)) (o1 : (I 1).val = win0_3.index t (1 : Fin 4))
    (o2 : (I 2).val = win0_3.index t (2 : Fin 4) * 256 + r.val) (o3 : (I 3).val = win0_3.index t (3 : Fin 4) * 128 + d.val) :
    k0_pay1 (F := Ideal) (iblk m c 0 t) (iblk m c 1 t) (iblk m c 2 t) (ix4 (0 : Fin 1) (0 : Fin 1) r d)
      = attnScaled (V m c main_arg0) (V m c main_arg1) (V m c main_arg2) I := by
  refine (payload_apply (iblk m c 0 t) (iblk m c 1 t) (iblk m c 2 t) r d).trans ?_
  obtain ⟨_, _, _, p3, q0, q1, q2, q3, k0, k1, k2, k3, w0, w1, w2, w3⟩ := tile_index t
  unfold attnScaled attnScaledAt
  refine congrArg₂ softmaxDot (funext fun n => congrArg₂ scoreScaled (funext fun e => ?_) (funext fun e => ?_)) (funext fun n => ?_)
  · exact query_apply m c t r e (ix4 (I 0) (I 1) (I 2) e)
      (by show (I 0).val = win0_0.index t (0 : Fin 4); omega) (by show (I 1).val = win0_0.index t (1 : Fin 4); omega)
      (by show (I 2).val = win0_0.index t (2 : Fin 4) * 256 + r.val; omega)
      (by show e.val = win0_0.index t (3 : Fin 4) * 128 + e.val; omega)
  · exact key_apply m c t n e (ix4 (I 0) (I 1) n e)
      (by show (I 0).val = win0_1.index t (0 : Fin 4); omega) (by show (I 1).val = win0_1.index t (1 : Fin 4); omega)
      (by show n.val = win0_1.index t (2 : Fin 4) * 1024 + n.val; omega)
      (by show e.val = win0_1.index t (3 : Fin 4) * 128 + e.val; omega)
  · exact value_apply m c t n d (ix4 (I 0) (I 1) n (I 3))
      (by show (I 0).val = win0_2.index t (0 : Fin 4); omega) (by show (I 1).val = win0_2.index t (1 : Fin 4); omega)
      (by show n.val = win0_2.index t (2 : Fin 4) * 1024 + n.val; omega)
      (by show (I 3).val = win0_2.index t (3 : Fin 4) * 128 + d.val; omega)

/-- The body's value at point `t`, element by element, is attention of the argument arrays at the element's place in the
    output array. -/
theorem tile_value (c : Dev nD) (t : Fin cfg0.N) (y : S1x1x256x128.Idx) :
    k0_pay1 (F := Ideal) (iblk m c 0 t) (iblk m c 1 t) (iblk m c 2 t) y
      = attnScaled (V m c main_arg0) (V m c main_arg1) (V m c main_arg2) (((cfg0.win 3).blk t).view.emb y) := by
  obtain ⟨z0, z1, r, d, rfl⟩ : ∃ (z0 z1 : Fin 1) (r : Fin 256) (d : Fin 128), y = ix4 z0 z1 r d :=
    ⟨y 0, y 1, y 2, y 3, eq_ix4 y⟩
  obtain rfl : z0 = 0 := Subsingleton.elim _ _
  obtain rfl : z1 = 0 := Subsingleton.elim _ _
  exact tile_value_at m c t r d _ (out_coords t r d).1 (out_coords t r d).2.1 (out_coords t r d).2.2.1 (out_coords t r d).2.2.2

/-- WHAT POINT `t` WRITES BACK is tile `t` of attention of the argument arrays. -/
theorem flushed_eq (c : Dev nD) (t : Fin cfg0.N) :
    (dats m 0 c).flushed 3 t
      = ((cfg0.win 3).blk t).view.read (Elt Ideal) (attnScaled (V m c main_arg0) (V m c main_arg1) (V m c main_arg2)) := by
  rw [Cert.KernelIdeal.Value.flushed3]
  unfold out0_3
  rw [View.canon_unit_zero zeros]
  simp only [View.ld_unit_zero (S := S1x1x256x128) zeros, View.ld_unit_zero (S := S1x1x1024x128) zeros]
  funext y
  exact tile_value m c t y

/-! ## The tiles cover the array -/

/-- An index of the output array is in point `t`'s tile iff each coordinate is in the tile's range on its axis. -/
theorem mem_tile (t : Fin cfg0.N) (i : S8x16x1024x128.Idx) :
    i ∈ ((cfg0.win 3).blk t).view.set ↔ ∀ a : Fin 4, win0_3.index t a * S1x1x256x128.size a ≤ (i a).val ∧ (i a).val < win0_3.index t a * S1x1x256x128.size a + S1x1x256x128.size a := by
  show i ∈ ((View.whole main_v0).slice (win0_3.rect t)).set ↔ _
  rw [View.set_slice_whole, Rect.mem_set_unit]
  exact Iff.rfl

/-- Every index of the output array is in the tile of the point its batch, head and row name. -/
theorem covered (i : S8x16x1024x128.Idx) :
    ∃ t : Fin cfg0.N, (cfg0.win 3).flush t = true ∧ i ∈ ((cfg0.win 3).blk t).view.set := by
  have hN : grid0.N = 512 := N_0
  have hi0 : (i 0).val < 8 := (i 0).isLt
  have hi1 : (i 1).val < 16 := (i 1).isLt
  have hi2 : (i 2).val < 1024 := (i 2).isLt
  have hi3 : (i 3).val < 128 := (i 3).isLt
  have hlt : ((i 0).val * 16 + (i 1).val) * 4 + (i 2).val / 256 < cfg0.N := by
    show _ < grid0.N
    omega
  refine ⟨⟨((i 0).val * 16 + (i 1).val) * 4 + (i 2).val / 256, hlt⟩, flush0_3 _, ?_⟩
  obtain ⟨p0, p1, p2, p3, _⟩ := tile_index ⟨((i 0).val * 16 + (i 1).val) * 4 + (i 2).val / 256, hlt⟩
  rw [mem_tile]
  intro a
  match a with
  | ⟨0, _⟩ =>
    show win0_3.index ⟨((i 0).val * 16 + (i 1).val) * 4 + (i 2).val / 256, hlt⟩ (0 : Fin 4) * 1 ≤ (i 0).val
      ∧ (i 0).val < win0_3.index ⟨((i 0).val * 16 + (i 1).val) * 4 + (i 2).val / 256, hlt⟩ (0 : Fin 4) * 1 + 1
    rw [p0]; show (((i 0).val * 16 + (i 1).val) * 4 + (i 2).val / 256) / 64 * 1 ≤ _ ∧ _ < (((i 0).val * 16 + (i 1).val) * 4 + (i 2).val / 256) / 64 * 1 + 1
    omega
  | ⟨1, _⟩ =>
    show win0_3.index ⟨((i 0).val * 16 + (i 1).val) * 4 + (i 2).val / 256, hlt⟩ (1 : Fin 4) * 1 ≤ (i 1).val
      ∧ (i 1).val < win0_3.index ⟨((i 0).val * 16 + (i 1).val) * 4 + (i 2).val / 256, hlt⟩ (1 : Fin 4) * 1 + 1
    rw [p1]; show (((i 0).val * 16 + (i 1).val) * 4 + (i 2).val / 256) / 4 % 16 * 1 ≤ _ ∧ _ < (((i 0).val * 16 + (i 1).val) * 4 + (i 2).val / 256) / 4 % 16 * 1 + 1
    omega
  | ⟨2, _⟩ =>
    show win0_3.index ⟨((i 0).val * 16 + (i 1).val) * 4 + (i 2).val / 256, hlt⟩ (2 : Fin 4) * 256 ≤ (i 2).val
      ∧ (i 2).val < win0_3.index ⟨((i 0).val * 16 + (i 1).val) * 4 + (i 2).val / 256, hlt⟩ (2 : Fin 4) * 256 + 256
    rw [p2]; show (((i 0).val * 16 + (i 1).val) * 4 + (i 2).val / 256) % 4 * 256 ≤ _ ∧ _ < (((i 0).val * 16 + (i 1).val) * 4 + (i 2).val / 256) % 4 * 256 + 256
    omega
  | ⟨3, _⟩ =>
    show win0_3.index ⟨((i 0).val * 16 + (i 1).val) * 4 + (i 2).val / 256, hlt⟩ (3 : Fin 4) * 128 ≤ (i 3).val
      ∧ (i 3).val < win0_3.index ⟨((i 0).val * 16 + (i 1).val) * 4 + (i 2).val / 256, hlt⟩ (3 : Fin 4) * 128 + 128
    rw [p3]; omega

/-! ## The output array, and the run -/

/-- THE OUTPUT ARRAY after the run is attention, in the scaled form, of the three argument arrays as launched. -/
theorem final (c : Dev nD) :
    (dats m 0 c).arrAt 3 cfg0.N
      = attnScaled (m ((c : Thread nD τ).loc main_arg0)) (m ((c : Thread nD τ).loc main_arg1)) (m ((c : Thread nD τ).loc main_arg2)) :=
  (dats m 0 c).arrAt_eq_of_cover 3
    (attnScaled (V m c main_arg0) (V m c main_arg1) (V m c main_arg2)) (fun t _ => flushed_eq m c t) covered

/-- The kernel's run, read: the result array holds attention of the arguments, and the arguments are unchanged. -/
theorem run : θ_run defs (onTc (τ := τ) (main (F := Ideal))) ⟨m, fun _ => 0, ρ⟩ fun r => ∀ c : Dev nD,
      r.2.mem ((c : Thread nD τ).loc main_v0)
        = attnScaled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.lean ====
/-
  Naive softmax attention, `softmax(q kᵀ / 128) v` per batch and head, computed by a tiled kernel and by a plain
  reference; they agree at the ideal values whenever `q` and `k` hold real numbers.

  The kernel works on 512 grid points, one per (batch, head, tile of 256 query rows). At each it multiplies the query tile
  by `2⁻⁷`, forms the tile's 256 × 1024 scores against all keys of the head, takes each row's softmax (subtract the row
  maximum, exponentiate, divide by the row sum) and multiplies by the head's values. The reference forms all scores at
  once, divides them by `128`, applies the same softmax along the key axis and contracts with the values.

  The only difference is where the factor `1/128` sits: on each query entry inside the sum over the head dimension, or on
  the sum. `2⁻⁷` is exactly `1/128` and dividing by the real `128` is multiplying by `1/128`, but moving a factor across a
  sum is not valid on the extended reals in general; for real `q` and `k` — what the precondition says of every input —
  both scores are the same real number (Proof/Softmax.lean). From the score on, the two programs compute one function of
  the score row. The value `v` needs no hypothesis: it enters both sides in the same place.

  The pieces: Proof/BodyAttention.lean reads what the kernel body stores at a point; Proof/KernelArray.lean shows the 512
  tiles are the tiles of one array and cover it; Proof/RefAttention.lean reads the reference's result; Proof/Finite.lean
  reads the precondition. The three programs terminate without a fault and leave their arguments unchanged by their
  generated frames and run; the idealized kernel is the kernel's own text read at the ideal values, no operation rewritten.
-/
import proofs.«148451_j57758720197221_2_alg».proof.Defs
import proofs.«148451_j57758720197221_2_alg».proof.Proof.Gen.Kernel
import proofs.«148451_j57758720197221_2_alg».proof.Proof.Gen.Kernel.Skeleton
import proofs.«148451_j57758720197221_2_alg».proof.Proof.Gen.Kernel.Launch
import proofs.«148451_j57758720197221_2_alg».proof.Proof.Gen.Kernel.Points
import proofs.«148451_j57758720197221_2_alg».proof.Proof.Gen.Kernel.Frame
import proofs.«148451_j57758720197221_2_alg».proof.Proof.Gen.KernelIdeal
import proofs.«148451_j57758720197221_2_alg».proof.Proof.Gen.KernelIdeal.Skeleton
import proofs.«148451_j57758720197221_2_alg».proof.Proof.Gen.KernelIdeal.Launch
import proofs.«148451_j57758720197221_2_alg».proof.Proof.Gen.KernelIdeal.Points
import proofs.«148451_j57758720197221_2_alg».proof.Proof.Gen.KernelIdeal.Frame
import proofs.«148451_j57758720197221_2_alg».proof.Proof.Gen.ReferenceIdeal
import proofs.«148451_j57758720197221_2_alg».proof.Proof.Gen.Pre_finite_inputs
import proofs.«148451_j57758720197221_2_alg».proof.Proof.Gen.KernelIdeal.Value
import proofs.«148451_j57758720197221_2_alg».proof.Proof.Gen.ReferenceIdeal.Run
import proofs.«148451_j57758720197221_2_alg».proof.Proof.Gen.ReferenceIdeal.Read
import proofs.«148451_j57758720197221_2_alg».proof.Proof.Softmax
import proofs.«148451_j57758720197221_2_alg».proof.Proof.Finite
import proofs.«148451_j57758720197221_2_alg».proof.Proof.RefAttention
import proofs.«148451_j57758720197221_2_alg».proof.Proof.KernelArray
import Idealize.ShloMosaic.Adequacy
import Idealize.ShloMosaic.Init

noncomputable section

namespace Cert.Proof

open Idealize.ShloMosaic Idealize.ShloMosaic.TcCoe Idealize.SL.Sem Cert.Attention

/-- The kernel as printed runs and leaves its arguments unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the ideal values: nothing to preserve. -/
theorem preserves : Cert.preserves_Kernel_KernelIdeal := trivial

/-- From memories agreeing on `q`, `k`, `v`, all entries real, both programs end with the result array holding attention of
    the arguments: the kernel's in the scaled form, which for real `q` and `k` is the divided form the reference computes. -/
theorem algebraic : Cert.algebraic_KernelIdeal_ReferenceIdeal := by
  intro m ρ m' ρ' hpre hagree
  refine ⟨fun c => attnDivided (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.ArrayValue.run m ρ)
    obtain ⟨hq, hk, _⟩ := Cert.Finite.reals_of_pre _ _ _ (hpre c)
    exact attnScaled_eq_attnDivided _ _ _ hq hk
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, Cert.ReferenceIdeal.RefValue.result_eq, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
